-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S3072x2048 : Shape := ⟨2, ![3072, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S3072x2048 : S_.BroadcastsInDim S3072x2048 (![] : Fin 0 → Fin S3072x2048.rank)
  reducesTo_S3072x2048_S_d0_1 : S3072x2048.ReducesTo [0, 1] S_

variable [Facts]

def fn {F : FTy → Type} [FloatOps F] (main_arg0 : FVec F S4096x2048 .f32) (main_arg1 : FVec F S3072x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S3072x2048 .f32 := Host.absf main_arg1
  let main_cst_0 : FVec F S_ .f32 := constant S_ .f32 0x7F800000#32
  let main_v5 : FVec F S3072x2048 .f32 := broadcastInDim S3072x2048 ![] bcast_S_S3072x2048 main_cst_0
  let main_v6 : IVec S3072x2048 1 := cmpf .olt main_v4 main_v5
  let main_c_1 : IVec S_ 1 := constantI S_ 1 1#1
  let main_v7 : IVec S_ 1 := (fun x v => Host.reduce IntOp.andi x v reducesTo_S3072x2048_S_d0_1 h_S_) main_v6 main_c_1
  let main_v8 : IVec S_ 1 := andi main_v3 main_v7
  main_v8
-- ==== Kernel.lean ====
abbrev S4096x2048 : Shape := ⟨2, ![4096, 2048]⟩
abbrev S3072x2048 : Shape := ⟨2, ![3072, 2048]⟩
abbrev S4096x3072 : Shape := ⟨2, ![4096, 3072]⟩
abbrev S256x2048 : Shape := ⟨2, ![256, 2048]⟩
abbrev S4096x256 : Shape := ⟨2, ![4096, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S3072x2048, .f32⟩
  | .hbm, ⟨2, _⟩ => ⟨S4096x3072, .f32⟩
  | .local _ .vmem, ⟨0, _⟩ => ⟨S4096x2048, .f32⟩
  | .local _ .vmem, ⟨1, _⟩ => ⟨S256x2048, .f32⟩
  | .local _ .vmem, ⟨2, _⟩ => ⟨S256x2048, .f32⟩
  | .local _ .vmem, ⟨3, _⟩ => ⟨S4096x256, .f32⟩
  | .local _ .vmem, ⟨4, _⟩ => ⟨S4096x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x2048_S4096x2048_0_0 : ∀ a, (![0, 0] : Fin 2 → Nat) a + S4096x2048.size a ≤ S4096x2048.size a
  h_S4096x2048 : 0 < S4096x2048.numel
  inb_S256x2048_S256x2048_0_0 : ∀ a, (![0, 0] : Fin 2 → Nat) a + S256x2048.size a ≤ S256x2048.size a
  h_S256x2048 : 0 < S256x2048.numel
  inb_S4096x256_S4096x256_0_0 : ∀ a, (![0, 0] : Fin 2 → Nat) a + S4096x256.size a ≤ S4096x256.size a
  h_S4096x256 : 0 < S4096x256.numel
  dot_S4096x2048_S256x2048_S4096x256_1_1_0_0_n_n_wf : DotDims.WF S4096x2048 S256x2048 S4096x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x2048.size a ≤ S4096x2048.size a
  hwx0_0 : ∀ i : grid0.Coords, EltTy.bits .f32 = 32 ∨ (Rect.block (s := S4096x2048) S4096x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S3072x2048.size a
  hwx0_1 : ∀ i : grid0.Coords, EltTy.bits .f32 = 32 ∨ (Rect.block (s := S3072x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x3072.size a
  hwx0_2 : ∀ i : grid0.Coords, EltTy.bits .f32 = 32 ∨ (Rect.block (s := S4096x3072) S4096x256.size (cc0_transform_2 i) (hinb0_2 i)).WholeWords (EltTy.packing .f32)

variable [Facts₀]

def dot_S4096x2048_S256x2048_S4096x256_1_1_0_0_n_n : DotDims S4096x2048 S256x2048 S4096x256 where
  lhsContracting := [1]
  rhsContracting := [1]
  lhsNonContracting := [0]
  rhsNonContracting := [0]
  lhsBatch := []
  rhsBatch := []
  wf := dot_S4096x2048_S256x2048_S4096x256_1_1_0_0_n_n_wf

abbrev win0_0 : Pipeline.Window sig grid0 :=
  Pipeline.Window.ofSpec (Memref.whole main_arg0) S4096x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S3072x2048 : Shape := ⟨2, ![3072, 2048]⟩
abbrev S2048x3072 : Shape := ⟨2, ![2048, 3072]⟩
abbrev S4096x3072 : Shape := ⟨2, ![4096, 3072]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S3072x2048, .f32⟩
  | .hbm, ⟨2, _⟩ => ⟨S2048x3072, .f32⟩
  | .hbm, ⟨3, _⟩ => ⟨S4096x3072, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S3072x2048_S2048x3072_1_0 : S3072x2048.Transposes [1, 0] S2048x3072
  dot_S4096x2048_S2048x3072_S4096x3072_1_0_0_1_n_n_wf : DotDims.WF S4096x2048 S2048x3072 S4096x3072 [1] [0] [0] [1] [] []

variable [Facts₀]

def dot_S4096x2048_S2048x3072_S4096x3072_1_0_0_1_n_n : DotDims S4096x2048 S2048x3072 S4096x3072 where
  lhsContracting := [1]
  rhsContracting := [0]
  lhsNonContracting := [0]
  rhsNonContracting := [1]
  lhsBatch := []
  rhsBatch := []
  wf := dot_S4096x2048_S2048x3072_S4096x3072_1_0_0_1_n_n_wf

class Facts : Prop extends Facts₀ where

variable [Facts]
-- ==== Proof.Spec.lean ====
/-
  The result both programs compute, as one function of the two argument arrays: the linear layer
  `x · Wᵀ` with `x : [4096, 2048]` and the weight stored row by row as `W : [3072, 2048]`
  (one row per output feature). Entry `(r, g)` of the result is the inner product of row `r` of `x`
  with row `g` of `W`, a sum of 2048 products on the extended reals.
-/
import Idealize.ShloMosaic.Lib.ValueIdx

noncomputable section

open scoped BigOperators

namespace Cert.Linear

open Idealize.ShloMosaic Idealize.ShloMosaic.ValueIdx

/-- `(x · Wᵀ)(r, g) = Σₖ x(r, k) · W(g, k)`. -/
def xWt (x : FVec Ideal ⟨2, ![4096, 2048]⟩ .f32) (w : FVec Ideal ⟨2, ![3072, 2048]⟩ .f32) :
    FVec Ideal ⟨2, ![4096, 3072]⟩ .f32 :=
  fun i => ∑ k : Fin 2048, x (ix2 (i 0) k) * w (ix2 (i 1) k)

theorem xWt_apply (x : FVec Ideal ⟨2, ![4096, 2048]⟩ .f32) (w : FVec Ideal ⟨2, ![3072, 2048]⟩ .f32)
    (i : (⟨2, ![4096, 3072]⟩ : Shape).Idx) :
    xWt x w i = ∑ k : Fin 2048, x (ix2 (i 0) k) * w (ix2 (i 1) k) := rfl

end Cert.Linear

end
-- ==== Proof.LibTransposedMatmul.lean ====
/-
  A matrix product `[a, n] × [b, n]ᵀ` (both operands contracted on their columns, no batch axis) into the zero
  accumulator, read at an entry on the extended reals: entry `(r, j)` is the sum over `k` of the left operand at
  `(r, k)` times the right operand at `(j, k)`. General over the three extents, the two operand formats and the
  precision.
-/
import Idealize.ShloMosaic.Lib.ValueIdx
import Idealize.ShloMosaic.PureOps.Ideal.Laws

noncomputable section

open scoped BigOperators

namespace Cert.LibTransposedMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.transposedRhs a n b).contr.Idx) :
    ((DotDims.transposedRhs a n b).lhsIdx i q 0).val = (i 0).val := rfl

/-- … and the contraction coordinate as its column. -/
theorem lhs_col (i : (⟨2, ![a, b]⟩ : Shape).Idx) (q : (DotDims.transposedRhs a n b).contr.Idx) :
    ((DotDims.transposedRhs a n b).lhsIdx i q 1).val
      = (q (⟨0, Nat.one_pos⟩ : Fin (DotDims.transposedRhs a n b).contr.rank)).val :=
  (DotDims.transposedRhs a n b).lhsIdx_val_of_single rfl i q

/-- The right operand's index: row `i 1` … -/
theorem rhs_row (i : (⟨2, ![a, b]⟩ : Shape).Idx) (q : (DotDims.transposedRhs a n b).contr.Idx) :
    ((DotDims.transposedRhs a n b).rhsIdx i q 0).val = (i 1).val := rfl

/-- … and the contraction coordinate as its column. -/
theorem rhs_col (i : (⟨2, ![a, b]⟩ : Shape).Idx) (q : (DotDims.transposedRhs a n b).contr.Idx) :
    ((DotDims.transposedRhs a n b).rhsIdx i q 1).val
      = (q (⟨0, Nat.one_pos⟩ : Fin (DotDims.transposedRhs a n b).contr.rank)).val :=
  (DotDims.transposedRhs a n b).rhsIdx_val_of_single rfl i q

/-- A product with the transposed right operand into the zero accumulator, at entry `(r, j)`, is
    `Σₖ A (r, k) · B (j, k)`. -/
theorem matmul_zero_apply {φ₁ φ₂ : FTy} (prec : Option ContractPrecision) (A : FVec Ideal ⟨2, ![a, n]⟩ φ₁)
    (B : FVec Ideal ⟨2, ![b, n]⟩ φ₂) (r : Fin a) (j : Fin b) :
    FloatOps.matmul (DotDims.transposedRhs a n b) prec A B (constant ⟨2, ![a, b]⟩ .f32 0x00000000#32) (ix2 r j)
      = ∑ k : Fin n, A (ix2 r k) * B (ix2 j k) := by
  rw [Ideal.matmul_constant_zero_apply, ← Equiv.sum_comp (contrEquiv1 (DotDims.transposedRhs a n b) n rfl rfl).symm]
  refine Finset.sum_congr rfl fun k _ => ?_
  have hk := contrEquiv1_symm_val (DotDims.transposedRhs a n b) n rfl rfl k
  have el : (DotDims.transposedRhs a n b).lhsIdx (ix2 r j) ((contrEquiv1 (DotDims.transposedRhs a n b) n rfl rfl).symm k)
      = ix2 r k :=
    funext fun c => Fin.ext (by
      match c with
      | ⟨0, _⟩ => exact lhs_row _ _
      | ⟨1, _⟩ => exact (lhs_col _ _).trans hk)
  have er : (DotDims.transposedRhs a n b).rhsIdx (ix2 r j) ((contrEquiv1 (DotDims.transposedRhs a n b) n rfl rfl).symm k)
      = ix2 j k :=
    funext fun c => Fin.ext (by
      match c with
      | ⟨0, _⟩ => exact rhs_row _ _
      | ⟨1, _⟩ => exact (rhs_col _ _).trans hk)
  rw [el, er]

end Cert.LibTransposedMatmul

end
-- ==== Proof.KernelValue.lean ====
/-
  The kernel's result array. The grid has 12 points; point `t` stages all of `x`, rows
  `256·t … 256·t + 255` of the weight, and writes columns `256·t … 256·t + 255` of the result. Its body is one
  matrix product contracting the columns of both staged blocks into a zero accumulator, so entry `(r, q)` of the
  tile is `Σₖ x(r, k) · W(256·t + q, k)`: the tile is the restriction of `x · Wᵀ` to those columns. The twelve
  column bands tile the result, so the array ends holding `x · Wᵀ`.
-/
import proofs.«126434_g79766132621352_cont_sun_c4_79_4_alg».proof.Proof.Gen.KernelIdeal.Value
import proofs.«126434_g79766132621352_cont_sun_c4_79_4_alg».proof.Proof.Spec
import proofs.«126434_g79766132621352_cont_sun_c4_79_4_alg».proof.Proof.LibTransposedMatmul
import Idealize.ShloMosaic.Lib.Pipeline.Value
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.Bands

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The body's tile at an entry: the inner product of row `r` of the first block with row `q` of the second. -/
theorem tile_apply (x0 : Vec Ideal S4096x2048 .f32) (x1 : Vec Ideal S256x2048 .f32) (r : Fin 4096) (q : Fin 256) :
    k0_pay1 (F := Ideal) x0 x1 (ix2 r q) = ∑ k : Fin 2048, x0 (ix2 r k) * x1 (ix2 q k) := by
  unfold k0_pay1
  exact Cert.LibTransposedMatmul.matmul_zero_apply none x0 x1 r q

/-- If the first block is all of `A` and the second is rows `256·b …` of `W`, the tile at `j` is `A · Wᵀ` at the entry
    `i` in the same row and `256·b` columns further right. -/
theorem tile_eq (A : FVec Ideal S4096x2048 .f32) (W : FVec Ideal S3072x2048 .f32)
    (x0 : Vec Ideal S4096x2048 .f32) (x1 : Vec Ideal S256x2048 .f32) (j : S4096x256.Idx) (i : S4096x3072.Idx) (b : ℕ)
    (h0 : ∀ (r : Fin 4096) (k : Fin 2048), x0 (ix2 r k) = A (ix2 r k))
    (h1 : ∀ (q : Fin 256) (g : Fin 3072) (k : Fin 2048), g.val = b * 256 + q.val → x1 (ix2 q k) = W (ix2 g k))
    (hi0 : (i 0).val = (j 0).val) (hi1 : (i 1).val = b * 256 + (j 1).val) :
    k0_pay1 (F := Ideal) x0 x1 j = Cert.Linear.xWt A W i := by
  obtain ⟨r, q, rfl⟩ : ∃ (r : Fin 4096) (q : Fin 256), j = ix2 r q := ⟨j 0, j 1, eq_ix2 j⟩
  rw [tile_apply, Cert.Linear.xWt_apply]
  have hr : i 0 = r := Fin.ext hi0
  refine Finset.sum_congr rfl fun k _ => ?_
  rw [h0 r k, h1 q (i 1) k hi1, hr]

/-- The printed index maps over the grid: the first window stays at block `(0, 0)`, the second moves down the
    weight's rows and the output moves along the result's columns, both at block `t`. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- The first input block at any point is the whole of `x`. -/
theorem block0_apply (c : Dev nD) (t : Fin cfg0.N) (r : Fin 4096) (k : Fin 2048) :
    (iblk m c 0 t : Vec Ideal S4096x2048 .f32) (ix2 r k) = V m c main_arg0 (ix2 r k) := by
  obtain ⟨e0, e1, -, -, -, -⟩ := idx_facts t
  unfold iblk
  rw [View.read_apply]
  show V m c main_arg0 (((cfg0.win 0).blk t).view.emb (ix2 r k)) = V m c main_arg0 (ix2 r k)
  refine congrArg _ (funext fun a => Fin.ext ?_)
  match a with
  | ⟨0, _⟩ => show win0_0.index t (0 : Fin 2) * 4096 + 1 * r.val = r.val; omega
  | ⟨1, _⟩ => show win0_0.index t (1 : Fin 2) * 2048 + 1 * k.val = k.val; omega

/-- The second input block at point `t` is rows `256·t … 256·t + 255` of the weight. -/
theorem block1_apply (c : Dev nD) (t : Fin cfg0.N) (q : Fin 256) (g : Fin 3072) (k : Fin 2048)
    (hg : g.val = t.val * 256 + q.val) :
    (iblk m c 1 t : Vec Ideal S256x2048 .f32) (ix2 q k) = V m c main_arg1 (ix2 g k) := by
  obtain ⟨-, -, e2, e3, -, -⟩ := idx_facts t
  unfold iblk
  rw [View.read_apply]
  show V m c main_arg1 (((cfg0.win 1).blk t).view.emb (ix2 q k)) = V m c main_arg1 (ix2 g k)
  refine congrArg _ (funext fun a => Fin.ext ?_)
  match a with
  | ⟨0, _⟩ => show win0_1.index t (0 : Fin 2) * 256 + 1 * q.val = g.val; omega
  | ⟨1, _⟩ => show win0_1.index t (1 : Fin 2) * 2048 + 1 * k.val = k.val; omega

/-- What point `t` writes back is block `t` of `x · Wᵀ` of the argument arrays. -/
theorem flushed_eq (c : Dev nD) (t : Fin cfg0.N) :
    (dats m 0 c).flushed 2 t
      = ((cfg0.win 2).blk t).view.read (Elt Ideal) (Cert.Linear.xWt (V m c main_arg0) (V m c main_arg1)) := by
  rw [flushed2]
  unfold out0_2
  rw [View.canon_unit_zero hz]
  simp only [View.ld_unit_zero (S := S4096x2048) hz, View.ld_unit_zero (S := S256x2048) hz]
  obtain ⟨-, -, -, -, e4, e5⟩ := idx_facts t
  funext j
  show k0_pay1 (F := Ideal) (iblk m c 0 t) (iblk m c 1 t) j
    = Cert.Linear.xWt (V m c main_arg0) (V m c main_arg1) (((cfg0.win 2).blk t).view.emb j)
  refine tile_eq (V m c main_arg0) (V m c main_arg1) (iblk m c 0 t) (iblk m c 1 t) j
    (((cfg0.win 2).blk t).view.emb j) t.val (block0_apply m c t) (block1_apply m c t) ?_ ?_
  · show win0_2.index t (0 : Fin 2) * 4096 + 1 * (j 0).val = (j 0).val; omega
  · show win0_2.index t (1 : Fin 2) * 256 + 1 * (j 1).val = t.val * 256 + (j 1).val; omega

/-- An index of the result is in point `t`'s block iff each coordinate is in the block's range on its axis. -/
theorem mem_blk (t : Fin cfg0.N) (i : S4096x3072.Idx) :
    i ∈ ((cfg0.win 2).blk t).view.set ↔ ∀ a : Fin 2, win0_2.index t a * S4096x256.size a ≤ (i a).val
      ∧ (i a).val < win0_2.index t a * S4096x256.size a + S4096x256.size a := by
  show i ∈ ((View.whole main_v0).slice (win0_2.rect t)).set ↔ _
  rw [View.set_slice_whole, Rect.mem_set_unit]
  exact Iff.rfl

/-- Every entry of the result lies in the band of the point `column / 256`. -/
theorem cover (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  have hN : cfg0.N = 12 := N_0
  let t : Fin cfg0.N := ⟨(i 1).val / 256, by rw [hN]; omega⟩
  have ht : t.val = (i 1).val / 256 := rfl
  obtain ⟨-, -, -, -, e4, e5⟩ := idx_facts t
  refine ⟨t, flush0_2 t, ?_⟩
  rw [mem_blk]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 256 ≤ (i 1).val ∧ (i 1).val < win0_2.index t (1 : Fin 2) * 256 + 256
    omega

/-- The result array after the run is `x · Wᵀ` of the argument arrays. -/
theorem final (c : Dev nD) : (dats m 0 c).arrAt 2 cfg0.N
    = Cert.Linear.xWt (m ((c : Thread nD τ).loc main_arg0)) (m ((c : Thread nD τ).loc main_arg1)) :=
  (dats m 0 c).arrAt_eq_of_cover 2 (Cert.Linear.xWt (V m c main_arg0) (V m c main_arg1))
    (fun t _ => flushed_eq m c t) cover

/-- The kernel's run: the result array at `x · Wᵀ`, the arguments unchanged. -/
theorem run : θ_run defs (onTc (τ := τ) (main (F := Ideal))) ⟨m, fun _ => 0, ρ⟩ fun r => ∀ c : Dev nD,
      r.2.mem ((c : Thread nD τ).loc main_v0)
        = Cert.Linear.xWt (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Bands

end
-- ==== Proof.RefValue.lean ====
/-
  The reference transposes the weight to `[2048, 3072]` and contracts `x`'s columns with the
  transposed weight's rows. Read at an entry `(r, g)`: the product's summand `k` is `x(r, k)` times the
  transposed weight at `(k, g)`, which is `W(g, k)`. So the reference's result is `x · Wᵀ`.
-/
import proofs.«126434_g79766132621352_cont_sun_c4_79_4_alg».proof.Proof.Gen.ReferenceIdeal.Read
import proofs.«126434_g79766132621352_cont_sun_c4_79_4_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The reference's last stage, as a function of the two arguments, is `x · Wᵀ`. -/
theorem ref_eq (x : FVec Ideal S4096x2048 .f32) (w : FVec Ideal S3072x2048 .f32) :
    val_main_v1 (F := Ideal) x w = Cert.Linear.xWt x w := by
  funext i
  rw [val_main_v1_apply, Cert.Linear.xWt_apply]
  refine Finset.sum_congr rfl fun k _ => ?_
  rw [val_main_v0_apply]
  have el : lidx_main_v1 i k = ix2 (i 0) k :=
    funext fun a => Fin.ext (by match a with | ⟨0, _⟩ => rfl | ⟨1, _⟩ => rfl)
  have er : idx_main_v0 (ridx_main_v1 i k) = ix2 (i 1) k :=
    funext fun a => Fin.ext (by match a with | ⟨0, _⟩ => rfl | ⟨1, _⟩ => rfl)
  rw [el, er]
  rfl

end Cert.ReferenceIdeal.RefValue

end
-- ==== Proof.lean ====
/- The linear layer `x · Wᵀ`, `x : [4096, 2048]`, `W : [3072, 2048]` stored one row per output feature.
   The kernel computes the result in twelve bands of 256 columns; band `t` is one matrix product of all of `x` with rows
   `256·t … 256·t + 255` of `W`, both contracted on their columns, into a zero accumulator. The reference transposes `W` and
   takes one product over the whole arrays. On the extended reals both give, at entry `(r, g)`, the sum over `k` of
   `x(r, k) · W(g, k)` with the terms in the same order, so no law of arithmetic is needed and the inputs' finiteness is
   never used.
   Proof/Spec.lean states that function; Proof/KernelValue.lean shows each band is its restriction and that the bands
   tile the result; Proof/RefValue.lean reads the reference's transpose and product at an entry;
   Proof/LibTransposedMatmul.lean is the product of a matrix with a transposed matrix at an entry. The three frames are the
   programs' runs with the result dropped; the idealized kernel is the kernel's own text read on the extended reals, so
   nothing is owed for the idealization. -/
import proofs.«126434_g79766132621352_cont_sun_c4_79_4_alg».proof.Defs
import proofs.«126434_g79766132621352_cont_sun_c4_79_4_alg».proof.Proof.Gen.Kernel
import proofs.«126434_g79766132621352_cont_sun_c4_79_4_alg».proof.Proof.Gen.Kernel.Skeleton
import proofs.«126434_g79766132621352_cont_sun_c4_79_4_alg».proof.Proof.Gen.Kernel.Launch
import proofs.«126434_g79766132621352_cont_sun_c4_79_4_alg».proof.Proof.Gen.Kernel.Points
import proofs.«126434_g79766132621352_cont_sun_c4_79_4_alg».proof.Proof.Gen.Kernel.Frame
import proofs.«126434_g79766132621352_cont_sun_c4_79_4_alg».proof.Proof.Gen.KernelIdeal
import proofs.«126434_g79766132621352_cont_sun_c4_79_4_alg».proof.Proof.Gen.KernelIdeal.Skeleton
import proofs.«126434_g79766132621352_cont_sun_c4_79_4_alg».proof.Proof.Gen.KernelIdeal.Launch
import proofs.«126434_g79766132621352_cont_sun_c4_79_4_alg».proof.Proof.Gen.KernelIdeal.Points
import proofs.«126434_g79766132621352_cont_sun_c4_79_4_alg».proof.Proof.Gen.KernelIdeal.Frame
import proofs.«126434_g79766132621352_cont_sun_c4_79_4_alg».proof.Proof.Gen.KernelIdeal.Value
import proofs.«126434_g79766132621352_cont_sun_c4_79_4_alg».proof.Proof.Gen.ReferenceIdeal
import proofs.«126434_g79766132621352_cont_sun_c4_79_4_alg».proof.Proof.Gen.ReferenceIdeal.Run
import proofs.«126434_g79766132621352_cont_sun_c4_79_4_alg».proof.Proof.Gen.ReferenceIdeal.Read
import proofs.«126434_g79766132621352_cont_sun_c4_79_4_alg».proof.Proof.Gen.Pre_finite_inputs
import proofs.«126434_g79766132621352_cont_sun_c4_79_4_alg».proof.Proof.Spec
import proofs.«126434_g79766132621352_cont_sun_c4_79_4_alg».proof.Proof.KernelValue
import proofs.«126434_g79766132621352_cont_sun_c4_79_4_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both result arrays end at `x · Wᵀ` of arguments that agree. -/
theorem algebraic : Cert.algebraic_KernelIdeal_ReferenceIdeal := by
  intro m ρ m' ρ' _ hagree
  refine ⟨fun c => Cert.Linear.xWt (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Bands.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
